-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S128x2048 .f32
  ∧ IdealRules.truncf_extf.Statement Cert.KernelIdeal.S1024x2048 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32768 : Shape := ⟨2, ![4096, 32768]⟩
abbrev S100x32768 : Shape := ⟨2, ![100, 32768]⟩
abbrev S_ : Shape := ⟨0, ![]⟩

class Facts : Prop where
  bcast_S_S4096x32768 : S_.BroadcastsInDim S4096x32768 (![] : Fin 0 → Fin S4096x32768.rank)
  reducesTo_S4096x32768_S_d0_1 : S4096x32768.ReducesTo [0, 1] S_
  h_S_ : 0 < S_.numel
  bcast_S_S100x32768 : S_.BroadcastsInDim S100x32768 (![] : Fin 0 → Fin S100x32768.rank)
  reducesTo_S100x32768_S_d0_1 : S100x32768.ReducesTo [0, 1] S_

variable [Facts]

def fn {F : FTy → Type} [FloatOps F] (main_arg0 : FVec F S4096x32768 .f32) (main_arg1 : FVec F S100x32768 .f32) : IVec S_ 1 :=
  let main_v0 : FVec F S4096x32768 .f32 := Host.absf main_arg0
  let main_cst : FVec F S_ .f32 := constant S_ .f32 0x7F800000#32
  let main_v1 : FVec F S4096x32768 .f32 := broadcastInDim S4096x32768 ![] bcast_S_S4096x32768 main_cst
  let main_v2 : IVec S4096x32768 1 := cmpf .olt main_v0 main_v1
  let main_c : IVec S_ 1 := constantI S_ 1 1#1
  let main_v3 : IVec S_ 1 := (fun x v => Host.reduce IntOp.andi x v reducesTo_S4096x32768_S_d0_1 h_S_) main_v2 main_c
  let main_v4 : FVec F S100x32768 .f32 := Host.absf main_arg1
  let main_cst_0 : FVec F S_ .f32 := constant S_ .f32 0x7F800000#32
  let main_v5 : FVec F S100x32768 .f32 := broadcastInDim S100x32768 ![] bcast_S_S100x32768 main_cst_0
  let main_v6 : IVec S100x32768 1 := cmpf .olt main_v4 main_v5
  let main_c_1 : IVec S_ 1 := constantI S_ 1 1#1
  let main_v7 : IVec S_ 1 := (fun x v => Host.reduce IntOp.andi x v reducesTo_S100x32768_S_d0_1 h_S_) main_v6 main_c_1
  let main_v8 : IVec S_ 1 := andi main_v3 main_v7
  main_v8
-- ==== Kernel.lean ====
abbrev S4096x32768 : Shape := ⟨2, ![4096, 32768]⟩
abbrev S100x32768 : Shape := ⟨2, ![100, 32768]⟩
abbrev S_ : Shape := ⟨0, ![]⟩
abbrev S128x32768 : Shape := ⟨2, ![128, 32768]⟩
abbrev S4096x128 : Shape := ⟨2, ![4096, 128]⟩
abbrev S1024x2048 : Shape := ⟨2, ![1024, 2048]⟩
abbrev S1024x128 : Shape := ⟨2, ![1024, 128]⟩
abbrev S128x2048 : Shape := ⟨2, ![128, 2048]⟩
abbrev S4096x100 : Shape := ⟨2, ![4096, 100]⟩

abbrev nBuf : Space → Nat
  | .hbm => 7
  | .vmem => 6
  | .smem => 0
  | _ => 0

abbrev bufTy : (tb : Table) → Fin (tcTables nBuf tb) → BufTy
  | .hbm, ⟨0, _⟩ => ⟨S4096x32768, .f32⟩
  | .hbm, ⟨1, _⟩ => ⟨S100x32768, .f32⟩
  | .hbm, ⟨2, _⟩ => ⟨S_, .i32⟩
  | .hbm, ⟨3, _⟩ => ⟨S_, .f32⟩
  | .hbm, ⟨4, _⟩ => ⟨S128x32768, .f32⟩
  | .hbm, ⟨5, _⟩ => ⟨S4096x128, .f32⟩
  | .hbm, ⟨6, _⟩ => ⟨S4096x100, .f32⟩
  | .local _ .vmem, ⟨0, _⟩ => ⟨S1024x2048, .f32⟩
  | .local _ .vmem, ⟨1, _⟩ => ⟨S1024x2048, .f32⟩
  | .local _ .vmem, ⟨2, _⟩ => ⟨S128x32768, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S4096x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨2, ![4, 16], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let c0 : Index := 0#32
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  ![0, v5.toNat]
def k0_cond2 (i : grid0.Coords) : BitVec 1 :=
  let arg1 : BitVec 32 := BitVec.ofNat 32 (i 1).val
  let c15_i32 : BitVec 32 := 15#32
  let v32 : BitVec 1 := Scalar.cmpi .eq arg1 c15_i32
  let v33 : BitVec 32 := Scalar.extui v32
  let c0_i32_9 : BitVec 32 := 0#32
  let v34 : BitVec 1 := Scalar.cmpi .ne v33 c0_i32_9
  v34

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x32768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  pads_S100x32768_S128x32768_0280_000 : S100x32768.Pads (![0, 0] : Fin 2 → Nat) ![28, 0] ![0, 0] S128x32768
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  h_S128x2048 : 0 < S128x2048.numel
  shapeCasts_S128x2048_S128x2048 : S128x2048.ShapeCasts S128x2048
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  slices_S4096x128_S4096x100_0_0 : S4096x128.Slices ![0, 0] S4096x100
  dot_S1024x2048_S128x2048_S1024x128_1_1_0_0_n_n_wf : DotDims.WF S1024x2048 S128x2048 S1024x128 [1] [1] [0] [0] [] []
  hrank0 : 0 < grid0.rank
  k0_mult1_dvd : ∀ i : grid0.Coords, 2048 ∣ (k0_mult1 i).toNat
  k0_off1_inb : ∀ i : grid0.Coords, ∀ a, (k0_off1 i) a + S128x2048.size a ≤ S128x32768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S4096x32768.size a
  hwx0_0 : ∀ i : grid0.Coords, EltTy.bits .f32 = 32 ∨ (Rect.block (s := S4096x32768) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32768.size a ≤ S128x32768.size a
  hwx0_1 : ∀ i : grid0.Coords, EltTy.bits .f32 = 32 ∨ (Rect.block (s := S128x32768) S128x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S4096x128.size a
  hwx0_2 : ∀ i : grid0.Coords, EltTy.bits .f32 = 32 ∨ (Rect.block (s := S4096x128) S1024x128.size (cc0_transform_2 i) (hinb0_2 i)).WholeWords (EltTy.packing .f32)

variable [Facts₀]

def dot_S1024x2048_S128x2048_S1024x128_1_1_0_0_n_n : DotDims S1024x2048 S128x2048 S1024x128 where
  lhsContracting := [1]
  rhsContracting := [1]
  lhsNonContracting := [0]
  rhsNonContracting := [0]
  lhsBatch := []
  rhsBatch := []
  wf := dot_S1024x2048_S128x2048_S1024x128_1_1_0_0_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x32768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x32768 : Shape := ⟨2, ![4096, 32768]⟩
abbrev S100x32768 : Shape := ⟨2, ![100, 32768]⟩
abbrev S_ : Shape := ⟨0, ![]⟩
abbrev S4096x100 : Shape := ⟨2, ![4096, 100]⟩

abbrev nBuf : Space → Nat
  | .hbm => 17
  | .vmem => 0
  | .smem => 0
  | _ => 0

abbrev bufTy : (tb : Table) → Fin (tcTables nBuf tb) → BufTy
  | .hbm, ⟨0, _⟩ => ⟨S4096x32768, .f32⟩
  | .hbm, ⟨1, _⟩ => ⟨S100x32768, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S100x32768, .f32⟩
  | .hbm, ⟨6, _⟩ => ⟨S100x32768, .f32⟩
  | .hbm, ⟨7, _⟩ => ⟨S_, .f32⟩
  | .hbm, ⟨8, _⟩ => ⟨S100x32768, .f32⟩
  | .hbm, ⟨9, _⟩ => ⟨S100x32768, .f32⟩
  | .hbm, ⟨10, _⟩ => ⟨S100x32768, .f32⟩
  | .hbm, ⟨11, _⟩ => ⟨S100x32768, .f32⟩
  | .hbm, ⟨12, _⟩ => ⟨S100x32768, .f32⟩
  | .hbm, ⟨13, _⟩ => ⟨S4096x100, .f32⟩
  | .hbm, ⟨14, _⟩ => ⟨S_, .f32⟩
  | .hbm, ⟨15, _⟩ => ⟨S4096x100, .f32⟩
  | .hbm, ⟨16, _⟩ => ⟨S4096x100, .f32⟩
  | _, _ => ⟨S4096x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]

class Facts₀ : Prop where
  bcast_S_S100x32768 : S_.BroadcastsInDim S100x32768 (![] : Fin 0 → Fin S100x32768.rank)
  bcast_S_S4096x100 : S_.BroadcastsInDim S4096x100 (![] : Fin 0 → Fin S4096x100.rank)
  dot_S4096x32768_S100x32768_S4096x100_1_1_0_0_n_n_wf : DotDims.WF S4096x32768 S100x32768 S4096x100 [1] [1] [0] [0] [] []

variable [Facts₀]

def dot_S4096x32768_S100x32768_S4096x100_1_1_0_0_n_n : DotDims S4096x32768 S100x32768 S4096x100 where
  lhsContracting := [1]
  rhsContracting := [1]
  lhsNonContracting := [0]
  rhsNonContracting := [0]
  lhsBatch := []
  rhsBatch := []
  wf := dot_S4096x32768_S100x32768_S4096x100_1_1_0_0_n_n_wf

class Facts : Prop extends Facts₀ where

variable [Facts]
-- ==== Proof.Finite.lean ====
/-
  The precondition read back: every entry of `x` is a real.

  The precondition is the conjunction of two `all`s, of `|x| < +∞` and of `|W| < +∞`. Its first conjunct at an
  index says the entry's magnitude is below the top of the extended reals, so the entry is neither infinity.
-/
import proofs.«163214_j40312563040985_2_alg».proof.Defs
import proofs.«163214_j40312563040985_2_alg».proof.Proof.Gen.Pre_finite_inputs
import Idealize.ShloMosaic.Lib.ReduceAll
import Idealize.ShloMosaic.Lib.ValueIdx
import Idealize.ShloMosaic.PureOps.Ideal.Laws

noncomputable section

open Idealize.ShloMosaic

namespace Cert.FiniteInputs

open Cert.Pre_finite_inputs

instance : Subsingleton S_.Idx := ⟨fun a b => funext fun d => d.elim0⟩

/-- The word of `+∞` is the top of the extended reals. -/
theorem inf_word : Ideal.ofBits .f32 0x7F800000#32 = ⊤ := by simp [Ideal.ofBits, Ideal.ieee]

/-- An extended real whose magnitude `max x (−x)` is below the top is a real. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

variable [Cert.Pre_finite_inputs.Facts]

/-- Under the precondition every entry of the first argument is a real. -/
theorem x_real (x : FVec Ideal S4096x32768 .f32) (w : FVec Ideal S100x32768 .f32)
    (h : fn (F := Ideal) x w = fun _ => 1#1) (i : S4096x32768.Idx) : ∃ r : ℝ, x i = (r : EReal) := by
  have h0 := congrFun h ValueIdx.ix0
  dsimp only [fn] at h0
  obtain ⟨h1, -⟩ := IntOp.andi_eq_one.1 h0
  have h2 := Host.reduce_andi_all _ _ _ _ _ h1 i
  have h3 : Ideal.cmp .olt (max (x i) (-(x i))) (Ideal.ofBits .f32 0x7F800000#32) = 1#1 := h2
  rw [inf_word] at h3
  refine real_of_abs_lt_top (x i) ?_
  by_contra hn
  simp [Ideal.cmp, hn] at h3

end Cert.FiniteInputs

end
-- ==== Proof.Pieces.lean ====
/-
  What each kind of grid point leaves in the carried accumulator and in the output block, as the step's
  pure payloads (generic in the float instance).

  The grid is 4 row tiles × 16 reduction tiles. At every point the body adds to the [1024,128] accumulator
  the product of the point's [1024,2048] block of `x` with the matching [128,2048] column tile of the
  padded weights. At the first reduction tile the accumulator is zeroed first; at the last the output block is
  written as the accumulator times the scale.
-/
import proofs.«163214_j40312563040985_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The K-tile of the resident weight block that the point at coordinates `i` reads: columns
    `2048·k … 2048·k + 2047` of all 128 rows. -/
abbrev wtile (i : grid0.Coords) (x1 : Vec F S128x32768 .f32) : Vec F S128x2048 .f32 :=
  View.ld x1 (Rect.unit (s := S128x32768) (k0_off1 i) S128x2048.size (k0_off1_inb i))

/-- A middle point of a row tile's reduction: the accumulator `xs0` ends at the step's payload of the
    weight tile, the input block and `xs0`. -/
theorem acc_B (c : Dev nD) (i : grid0.Coords) (a2 : Memref sig .tc .vmem S1024x2048 .f32) (h2 : a2.IsWhole)
    (a3 : Memref sig .tc .vmem S128x32768 .f32) (h3 : a3.IsWhole) (a4 : Memref sig .tc .vmem S1024x128 .f32) (h4 : a4.IsWhole)
    (a5 : Memref sig .tc .vmem S1024x128 .f32) (h5 : a5.IsWhole) (hc0 : ¬cond0_0 i) (hc1 : ¬cond0_1 i)
    (x0 : Vec F S1024x2048 .f32) (x1 : Vec F S128x32768 .f32) (xs0 : Vec F S1024x128 .f32) :
    sout0_B_0 c i a2 h2 a3 h3 a4 h4 a5 h5 hc0 hc1 x0 x1 xs0 = k0_pay2 (wtile i x1) x0 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S1024x2048) hz,
    View.ld_unit_zero (S := S1024x128) hz]

/-- The last point of a row tile's reduction: the accumulator takes the same step, -/
theorem acc_C (c : Dev nD) (i : grid0.Coords) (a2 : Memref sig .tc .vmem S1024x2048 .f32) (h2 : a2.IsWhole)
    (a3 : Memref sig .tc .vmem S128x32768 .f32) (h3 : a3.IsWhole) (a4 : Memref sig .tc .vmem S1024x128 .f32) (h4 : a4.IsWhole)
    (a5 : Memref sig .tc .vmem S1024x128 .f32) (h5 : a5.IsWhole) (hc0 : ¬cond0_0 i) (hc1 : cond0_1 i)
    (x0 : Vec F S1024x2048 .f32) (x1 : Vec F S128x32768 .f32) (xs0 : Vec F S1024x128 .f32) :
    sout0_C_0 c i a2 h2 a3 h3 a4 h4 a5 h5 hc0 hc1 x0 x1 xs0 = k0_pay2 (wtile i x1) x0 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S1024x2048) hz,
    View.ld_unit_zero (S := S1024x128) hz]
  rfl

/-- and the output block is the scaled accumulator. -/
theorem out_C (c : Dev nD) (i : grid0.Coords) (a2 : Memref sig .tc .vmem S1024x2048 .f32) (h2 : a2.IsWhole)
    (a3 : Memref sig .tc .vmem S128x32768 .f32) (h3 : a3.IsWhole) (a4 : Memref sig .tc .vmem S1024x128 .f32) (h4 : a4.IsWhole)
    (a5 : Memref sig .tc .vmem S1024x128 .f32) (h5 : a5.IsWhole) (hc0 : ¬cond0_0 i) (hc1 : cond0_1 i)
    (x0 : Vec F S1024x2048 .f32) (x1 : Vec F S128x32768 .f32) (xs0 : Vec F S1024x128 .f32) :
    out0_C_2 c i a2 h2 a3 h3 a4 h4 a5 h5 hc0 hc1 x0 x1 xs0 = k0_pay3 (k0_pay2 (wtile i x1) x0 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1024x128) _ hz]
  simp only [View.readAt_eq_ld, h2.read_unread, h3.read_unread, h5.read_unread, View.ld_unit_zero (S := S1024x2048) hz,
    View.ld_unit_zero (S := S1024x128) hz]
  rfl

/-- The first point of a row tile's reduction: the accumulator is zeroed, read back, and takes the step. -/
theorem acc_A (c : Dev nD) (i : grid0.Coords) (a2 : Memref sig .tc .vmem S1024x2048 .f32) (h2 : a2.IsWhole)
    (a3 : Memref sig .tc .vmem S128x32768 .f32) (h3 : a3.IsWhole) (a4 : Memref sig .tc .vmem S1024x128 .f32) (h4 : a4.IsWhole)
    (a5 : Memref sig .tc .vmem S1024x128 .f32) (h5 : a5.IsWhole) (hc0 : cond0_0 i) (hc1 : ¬cond0_1 i)
    (x0 : Vec F S1024x2048 .f32) (x1 : Vec F S128x32768 .f32) :
    sout0_A_0 c i a2 h2 a3 h3 a4 h4 a5 h5 hc0 hc1 x0 x1 = k0_pay2 (wtile i x1) x0 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1024x128) hz, View.readCov_unit_zero (S := S1024x128) _ hz]
  simp only [View.readAt_eq_ld, h2.read_unread, h3.read_unread, View.ld_unit_zero (S := S1024x2048) hz]
  rfl

end Cert.KernelIdeal.Pieces
end
-- ==== Proof.StepValue.lean ====
/-
  One accumulation step of the kernel read at an output index, over the extended reals.

  With narrowing to bf16 the identity, the step's high half is the block of `x` itself and its low half the
  residual `x − x`; each is multiplied against the signs of the weight tile, contracted along the columns of both
  (`x · sign(w)ᵀ`), and the two products are added to the accumulator.
-/
import proofs.«163214_j40312563040985_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.ValueIdx

namespace Cert.KernelIdeal.StepValue

open Cert.KernelIdeal Cert.KernelIdeal.Gen

/-- Output coordinate 0 of the step's product is the left operand's row. -/
theorem lhs_row (i : S1024x128.Idx) (q : dot_S1024x2048_S128x2048_S1024x128_1_1_0_0_n_n.contr.Idx) :
    (dot_S1024x2048_S128x2048_S1024x128_1_1_0_0_n_n.lhsIdx i q 0).val = (i 0).val := by
  unfold DotDims.lhsIdx
  rw [dif_neg (show ¬(0 : Fin S1024x2048.rank) ∈ dot_S1024x2048_S128x2048_S1024x128_1_1_0_0_n_n.lhsBatch by decide), dif_pos (show (0 : Fin S1024x2048.rank) ∈ dot_S1024x2048_S128x2048_S1024x128_1_1_0_0_n_n.lhsNonContracting by decide)]
  rfl
/-- Output coordinate 1 of the step's product is the right operand's row: both operands are contracted along
    their columns (`x · wᵀ`). -/
theorem rhs_row (i : S1024x128.Idx) (q : dot_S1024x2048_S128x2048_S1024x128_1_1_0_0_n_n.contr.Idx) :
    (dot_S1024x2048_S128x2048_S1024x128_1_1_0_0_n_n.rhsIdx i q 0).val = (i 1).val := by
  unfold DotDims.rhsIdx
  rw [dif_neg (show ¬(0 : Fin S128x2048.rank) ∈ dot_S1024x2048_S128x2048_S1024x128_1_1_0_0_n_n.rhsBatch by decide), dif_pos (show (0 : Fin S128x2048.rank) ∈ dot_S1024x2048_S128x2048_S1024x128_1_1_0_0_n_n.rhsNonContracting by decide)]
  rfl

/-- The step's matrix product into the zero splat, read at `(r, c)`: `∑ j, l (r, j) · w (c, j)`. -/
theorem mm_apply {φ₁ φ₂ : FTy} (l : FVec Ideal S1024x2048 φ₁) (w : FVec Ideal S128x2048 φ₂) (r : Fin 1024) (cc : Fin 128) :
    matmul dot_S1024x2048_S128x2048_S1024x128_1_1_0_0_n_n none l w (constant S1024x128 .f32 0x00000000#32) (ix2 r cc)
      = ∑ j : Fin 2048, l (ix2 r j) * w (ix2 cc j) := by
  simp only [matmul]
  rw [Ideal.matmul_constant_zero_apply, ← Equiv.sum_comp (contrEquiv1 dot_S1024x2048_S128x2048_S1024x128_1_1_0_0_n_n 2048 rfl rfl).symm]
  refine Finset.sum_congr rfl fun k _ => ?_
  have hk := contrEquiv1_symm_val dot_S1024x2048_S128x2048_S1024x128_1_1_0_0_n_n 2048 rfl rfl k
  have el : dot_S1024x2048_S128x2048_S1024x128_1_1_0_0_n_n.lhsIdx (ix2 r cc) ((contrEquiv1 dot_S1024x2048_S128x2048_S1024x128_1_1_0_0_n_n 2048 rfl rfl).symm k) = ix2 r k := funext fun a => Fin.ext (by
    match a with
    | ⟨0, _⟩ => exact lhs_row _ _
    | ⟨1, _⟩ => exact (dot_S1024x2048_S128x2048_S1024x128_1_1_0_0_n_n.lhsIdx_val_of_single rfl _ _).trans hk)
  have er : dot_S1024x2048_S128x2048_S1024x128_1_1_0_0_n_n.rhsIdx (ix2 r cc) ((contrEquiv1 dot_S1024x2048_S128x2048_S1024x128_1_1_0_0_n_n 2048 rfl rfl).symm k) = ix2 cc k := funext fun a => Fin.ext (by
    match a with
    | ⟨0, _⟩ => exact rhs_row _ _
    | ⟨1, _⟩ => exact (dot_S1024x2048_S128x2048_S1024x128_1_1_0_0_n_n.rhsIdx_val_of_single rfl _ _).trans hk)
  rw [el, er]

/-- The kernel's `sign` of the weight tile — `1` with the element's sign where its magnitude is positive, the
    element itself (zero) elsewhere — is the order's sign at every element. -/
theorem sign_tile (w : FVec Ideal S128x2048 .f32) :
    select (cmpf .ogt (absf w) (broadcast S128x2048 (Scalar.ofBits .f32 0x00000000#32)))
        (select (cmpf .olt w (constant S128x2048 .f32 0x00000000#32)) (constant S128x2048 .f32 0xBF800000#32)
          (constant S128x2048 .f32 0x3F800000#32)) w
      = fun i => Ideal.sign (w i) :=
  funext fun i => Ideal.jnp_sign_eq_sign_f32 (w i)

/-- One accumulation step read at `(r, c)`: the accumulator plus the row of `x` against the signs of row `c` of
    the weight tile, plus the same sum over the residual `x − x` (the low half of the two-pass split, whose high half
    is `x` itself once the narrowing to bf16 is the identity). -/
theorem step_apply (w : Vec Ideal S128x2048 .f32) (x : Vec Ideal S1024x2048 .f32) (acc : Vec Ideal S1024x128 .f32)
    (r : Fin 1024) (cc : Fin 128) :
    k0_pay2 (F := Ideal) w x acc (ix2 r cc)
      = acc (ix2 r cc) + ((∑ j : Fin 2048, x (ix2 r j) * Ideal.sign (w (ix2 cc j)))
          + ∑ j : Fin 2048, (x (ix2 r j) - x (ix2 r j)) * Ideal.sign (w (ix2 cc j))) := by
  unfold k0_pay2
  simp only [shapeCast_self]
  rw [sign_tile]
  rw [addf_apply, addf_apply, mm_apply, mm_apply]
  rfl

/-- The reset value of the accumulator is zero everywhere. -/
theorem zero_apply (i : S1024x128.Idx) : k0_pay1 (F := Ideal) i = 0 := by
  unfold k0_pay1
  simp only [shapeCast_self]
  exact Ideal.ofBits_zero_f32

/-- The output block is the accumulator times the scale word, element by element. -/
theorem scaled_apply (acc : Vec Ideal S1024x128 .f32) (i : S1024x128.Idx) :
    k0_pay3 (F := Ideal) acc i = acc i * Ideal.ofBits .f32 0x3BB504F3#32 := rfl

end Cert.KernelIdeal.StepValue
end
-- ==== Proof.Algebra.lean ====
/-
  The extended-real algebra that joins the two programs.

  * The two-pass split: with narrowing the identity, the low half of `x` is `x − x`, which is `0` for a finite
    `x` (and is not for an infinite one: this is where finiteness of `x` is used), so its product against any
    row contributes nothing.
  * The reference's straight-through sign `(sign w − c) + c` with `c` the clamp of `w` between two real bounds:
    `c` is a real whatever `w` is, and so is `sign w`, hence the sum is `sign w`.
  * A sum over the first `a + b` columns is the sum over the first `a` plus the sum over the next `b`.
-/
import Idealize.ShloMosaic.PureOps.Ideal
import Idealize.ShloMosaic.PureOps.Ideal.Laws

noncomputable section

open Idealize.ShloMosaic
open scoped BigOperators

namespace Cert.SignedSum

/-- The order's sign of an extended real is a real (`−1`, `0` or `1`). -/
theorem sign_real (w : EReal) : ∃ s : ℝ, Ideal.sign w = (s : EReal) := by
  induction w using EReal.rec with
  | bot => exact ⟨-1, by rw [Ideal.sign_bot, EReal.coe_neg, EReal.coe_one]⟩
  | top => exact ⟨1, by rw [Ideal.sign_top, EReal.coe_one]⟩
  | coe r => exact ⟨_, Ideal.sign_coe r⟩

/-- A clamp between two real bounds is a real, at every extended real. -/
theorem clamp_real (lo hi : ℝ) (w : EReal) : ∃ c : ℝ, min (hi : EReal) (max (lo : EReal) w) = (c : EReal) := by
  have h1 : min (hi : EReal) (max (lo : EReal) w) ≠ ⊤ :=
    ne_top_of_le_ne_top (EReal.coe_ne_top hi) (min_le_left _ _)
  have h2 : min (hi : EReal) (max (lo : EReal) w) ≠ ⊥ := by
    refine ne_bot_of_le_ne_bot (EReal.coe_ne_bot (min hi lo)) ?_
    refine le_min ?_ ?_
    · exact EReal.coe_le_coe_iff.mpr (min_le_left _ _)
    · exact le_trans (EReal.coe_le_coe_iff.mpr (min_le_right _ _)) (le_max_left _ _)
  exact ⟨_, (EReal.coe_toReal h1 h2).symm⟩

/-- The straight-through sign: subtracting the clamp and adding it back leaves the sign. -/
theorem ste_eq (lo hi : ℝ) (w : EReal) :
    (Ideal.sign w - min (hi : EReal) (max (lo : EReal) w)) + min (hi : EReal) (max (lo : EReal) w) = Ideal.sign w := by
  obtain ⟨s, hs⟩ := sign_real w
  obtain ⟨c, hc⟩ := clamp_real lo hi w
  rw [hs, hc, ← EReal.coe_sub, ← EReal.coe_add, sub_add_cancel]

/-- The lower clamp bound's word denotes a real. -/
theorem lo_real : ∃ r : ℝ, Ideal.ofBits .f32 0xBFA66666#32 = (r : EReal) :=
  ⟨_, by simp [Ideal.ofBits, Ideal.ieee, -EReal.coe_mul, -EReal.coe_neg]; rfl⟩

/-- The upper clamp bound's word denotes a real. -/
theorem hi_real : ∃ r : ℝ, Ideal.ofBits .f32 0x3FA66666#32 = (r : EReal) :=
  ⟨_, by simp [Ideal.ofBits, Ideal.ieee, -EReal.coe_mul, -EReal.coe_neg]; rfl⟩

/-- The reference's weight `(sign w − clip w) + clip w`, the clip between the two printed words, is `sign w`. -/
theorem ste_words (w : EReal) :
    (Ideal.sign w - min (Ideal.ofBits .f32 0x3FA66666#32) (max (Ideal.ofBits .f32 0xBFA66666#32) w))
      + min (Ideal.ofBits .f32 0x3FA66666#32) (max (Ideal.ofBits .f32 0xBFA66666#32) w) = Ideal.sign w := by
  obtain ⟨lo, hlo⟩ := lo_real
  obtain ⟨hi, hhi⟩ := hi_real
  rw [hlo, hhi]
  exact ste_eq lo hi w

/-- The residual `x − x` of a row of reals against any row sums to zero. -/
theorem residual_sum_zero {ι : Type*} [Fintype ι] (x s : ι → EReal) (hx : ∀ j, ∃ r : ℝ, x j = (r : EReal)) :
    ∑ j, (x j - x j) * s j = 0 :=
  Finset.sum_eq_zero fun j _ => by
    obtain ⟨r, hr⟩ := hx j
    rw [hr, ← EReal.coe_sub, sub_self, EReal.coe_zero, zero_mul]

/-- The first `a + b` columns: the first `a`, then the next `b`, the latter indexed from zero. -/
theorem sum_range_split (g : ℕ → EReal) (a b : ℕ) :
    ∑ j ∈ Finset.range (a + b), g j = ∑ j ∈ Finset.range a, g j + ∑ j : Fin b, g (a + j.val) := by
  rw [Finset.sum_range_add]
  exact congrArg (_ + ·) (Finset.sum_range fun x => g (a + x))

end Cert.SignedSum

end
-- ==== Proof.Accumulate.lean ====
/-
  The accumulator across the grid.

  Point `t` of the 64 is row tile `t / 16` and reduction tile `t % 16`. It reads rows
  `1024 · (t / 16) … + 1023`, columns `2048 · (t % 16) … + 2047` of `x`, and the same columns of all 128 rows of
  the padded weights. With `x` finite, the step adds to the accumulator at `(r, c)` exactly the summands
  `x (row, j) · sign (w (c, j))` of those 2048 columns; so after reduction tile `k` of a row tile the accumulator is
  the sum over the first `2048 · (k + 1)` columns, and at `k = 15` the whole row's sum, which the output block
  scales.
-/
import proofs.«163214_j40312563040985_2_alg».proof.Proof.Gen.KernelIdeal.Frame
import proofs.«163214_j40312563040985_2_alg».proof.Proof.Pieces
import proofs.«163214_j40312563040985_2_alg».proof.Proof.StepValue
import proofs.«163214_j40312563040985_2_alg».proof.Proof.Algebra
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Accumulate

open Cert.KernelIdeal Cert.KernelIdeal.Gen Cert.KernelIdeal.Pieces Cert.KernelIdeal.StepValue Cert.SignedSum

variable (m : (ℓ : Loc nD τ sig) → Buf (Elt Ideal) ℓ)

/-! ## Where each point's blocks sit -/

/-- Point `t` is row tile `t / 16`, reduction tile `t % 16`: the block of `x` it reads. -/
theorem xidx : ∀ t : Fin cfg0.N, win0_0.index t 0 = t.val / 16 ∧ win0_0.index t 1 = t.val % 16 :=
  (by decide +kernel : ∀ t : Fin grid0.N, win0_0.index t 0 = t.val / 16 ∧ win0_0.index t 1 = t.val % 16)
/-- The padded weights are one block, resident at every point. -/
theorem widx : ∀ t : Fin cfg0.N, win0_1.index t 0 = 0 ∧ win0_1.index t 1 = 0 :=
  (by decide +kernel : ∀ t : Fin grid0.N, win0_1.index t 0 = 0 ∧ win0_1.index t 1 = 0)
/-- The output block of point `t` is row tile `t / 16`, all 128 columns. -/
theorem oidx : ∀ t : Fin cfg0.N, win0_2.index t 0 = t.val / 16 ∧ win0_2.index t 1 = 0 :=
  (by decide +kernel : ∀ t : Fin grid0.N, win0_2.index t 0 = t.val / 16 ∧ win0_2.index t 1 = 0)
/-- The weight tile read at point `t` starts at column `2048 · (t % 16)`. -/
theorem woff : ∀ t : Fin cfg0.N, k0_off1 (grid0.coords t) 0 = 0 ∧ k0_off1 (grid0.coords t) 1 = 2048 * (t.val % 16) :=
  (by decide +kernel : ∀ t : Fin grid0.N, k0_off1 (grid0.coords t) 0 = 0 ∧ k0_off1 (grid0.coords t) 1 = 2048 * (t.val % 16))

/-- The block of `x` at point `t`, at `(r, j)`, is `x` at row `1024 · (t / 16) + r`, column `2048 · (t % 16) + j`. -/
theorem xblk_apply (c : Dev nD) (t : Fin cfg0.N) (r : Fin 1024) (j : Fin 2048)
    (hr : 1024 * (t.val / 16) + r.val < 4096) (hj : 2048 * (t.val % 16) + j.val < 32768) :
    (iblk m c 0 t : Vec Ideal S1024x2048 .f32) (ix2 r j)
      = V m c main_arg0 (ix2 ⟨1024 * (t.val / 16) + r.val, hr⟩ ⟨2048 * (t.val % 16) + j.val, hj⟩) := by
  unfold iblk
  rw [View.read_apply]
  show V m c main_arg0 _ = V m c main_arg0 _
  congr 1
  funext a
  apply Fin.ext
  match a with
  | ⟨0, _⟩ => show win0_0.index t 0 * 1024 + 1 * r.val = 1024 * (t.val / 16) + r.val; rw [(xidx t).1]; omega
  | ⟨1, _⟩ => show win0_0.index t 1 * 2048 + 1 * j.val = 2048 * (t.val % 16) + j.val; rw [(xidx t).2]; omega

/-- The weight tile at point `t`, at `(c, j)`, is the padded weights at row `c`, column `2048 · (t % 16) + j`. -/
theorem wtile_apply (c : Dev nD) (t : Fin cfg0.N) (cc : Fin 128) (j : Fin 2048)
    (hj : 2048 * (t.val % 16) + j.val < 32768) :
    wtile (grid0.coords t) (iblk m c 1 t : Vec Ideal S128x32768 .f32) (ix2 cc j)
      = V m c main_v0 (ix2 cc ⟨2048 * (t.val % 16) + j.val, hj⟩) := by
  show (iblk m c 1 t : Vec Ideal S128x32768 .f32) _ = _
  unfold iblk
  rw [View.read_apply]
  show V m c main_v0 _ = V m c main_v0 _
  congr 1
  funext a
  apply Fin.ext
  match a with
  | ⟨0, _⟩ => show win0_1.index t 0 * 128 + 1 * (k0_off1 (grid0.coords t) 0 + 1 * cc.val) = cc.val; rw [(widx t).1, (woff t).1]; omega
  | ⟨1, _⟩ => show win0_1.index t 1 * 32768 + 1 * (k0_off1 (grid0.coords t) 1 + 1 * j.val) = 2048 * (t.val % 16) + j.val; rw [(widx t).2, (woff t).2]; omega

/-! ## One point's step, over the whole arrays -/

/-- The summand of output `(row, c)` at column `j`: `x (row, j) · sign (w (c, j))`, as a function of naturals
    (zero off the arrays, where it is never read). -/
def term (X : S4096x32768.Idx → EReal) (Wp : S128x32768.Idx → EReal) (row : ℕ) (cc : Fin 128) (j : ℕ) : EReal :=
  if h : row < 4096 ∧ j < 32768 then X (ix2 ⟨row, h.1⟩ ⟨j, h.2⟩) * Ideal.sign (Wp (ix2 cc ⟨j, h.2⟩)) else 0

/-- One step over a block whose row `r` is finite: the residual half vanishes, and the step adds the row's
    summands, whatever they are named. -/
theorem step_rows (w : Vec Ideal S128x2048 .f32) (x : Vec Ideal S1024x2048 .f32) (acc : Vec Ideal S1024x128 .f32)
    (r : Fin 1024) (cc : Fin 128) (T : Fin 2048 → EReal)
    (hx : ∀ j, ∃ y : ℝ, x (ix2 r j) = (y : EReal))
    (hT : ∀ j, x (ix2 r j) * Ideal.sign (w (ix2 cc j)) = T j) :
    k0_pay2 (F := Ideal) w x acc (ix2 r cc) = acc (ix2 r cc) + ∑ j, T j := by
  rw [step_apply, residual_sum_zero (fun j => x (ix2 r j)) (fun j => Ideal.sign (w (ix2 cc j))) hx, add_zero]
  exact congrArg (acc (ix2 r cc) + ·) (Finset.sum_congr rfl fun j _ => hT j)

/-- With `x` finite, the step at point `t` adds to the accumulator at `(r, c)` the summands of row
    `1024 · (t / 16) + r` over the 2048 columns of reduction tile `t % 16`. -/
theorem point_step (c : Dev nD) (hX : ∀ i, ∃ x : ℝ, V m c main_arg0 i = (x : EReal)) (t : Fin cfg0.N)
    (prev : Vec Ideal S1024x128 .f32) (r : Fin 1024) (cc : Fin 128) :
    k0_pay2 (F := Ideal) (wtile (grid0.coords t) (iblk m c 1 t)) (iblk m c 0 t) prev (ix2 r cc)
      = prev (ix2 r cc) + ∑ j : Fin 2048,
          term (V m c main_arg0) (V m c main_v0) (1024 * (t.val / 16) + r.val) cc (2048 * (t.val % 16) + j.val) := by
  have hN : t.val < 64 := lt_of_lt_of_eq t.isLt (show cfg0.N = 64 from N_0)
  have hr : 1024 * (t.val / 16) + r.val < 4096 := by have := r.isLt; omega
  have hj : ∀ j : Fin 2048, 2048 * (t.val % 16) + j.val < 32768 := fun j => by have := j.isLt; omega
  refine step_rows (wtile (grid0.coords t) (iblk m c 1 t)) (iblk m c 0 t) prev r cc
    (fun j => term (V m c main_arg0) (V m c main_v0) (1024 * (t.val / 16) + r.val) cc (2048 * (t.val % 16) + j.val))
    (fun j => ?_) (fun j => ?_)
  · obtain ⟨y, hy⟩ := hX (ix2 ⟨1024 * (t.val / 16) + r.val, hr⟩ ⟨2048 * (t.val % 16) + j.val, hj j⟩)
    exact ⟨y, (xblk_apply m c t r j hr (hj j)).trans hy⟩
  · rw [term, dif_pos ⟨hr, hj j⟩]
    exact congrArg₂ (fun a b => a * Ideal.sign b) (xblk_apply m c t r j hr (hj j)) (wtile_apply m c t cc j (hj j))

/-! ## The accumulator after each point -/

/-- The second component of a pair known by name. -/
theorem snd_of_eq {α β : Type*} {p : α × β} {a : α} {b : β} (h : p = (a, b)) : p.2 = b := by subst h; rfl
/-- The first component of a pair known by name. -/
theorem fst_of_eq {α β : Type*} {p : α × β} {a : α} {b : β} (h : p = (a, b)) : p.1 = a := by subst h; rfl

/-- At the first reduction tile of a row tile the accumulator is the step's payload over zero. -/
theorem scratch_first (c : Dev nD) (t : Fin cfg0.N) (h0 : t.val % 16 = 0) :
    (outsAt0 m c t.val t.isLt).2
      = k0_pay2 (F := Ideal) (wtile (grid0.coords t) (iblk m c 1 t)) (iblk m c 0 t) (k0_pay1 (F := Ideal)) := by
  have hN : t.val < 64 := lt_of_lt_of_eq t.isLt (show cfg0.N = 64 from N_0)
  have h1 : ¬t.val % 16 = 15 := by omega
  exact (snd_of_eq (outsAt0_A m c t h0 h1)).trans
    (acc_A (F := Ideal) c (grid0.coords t) (ms0_0 t) (hs0_0 t) (ms0_1 t) (hs0_1 t) (ms0_2 t) (hs0_2 t) scM0_0 (Memref.isWhole_whole _)
      ((hcond0_0 t).mpr h0) (fun h => h1 ((hcond0_1 t).mp h)) (iblk m c 0 t) (iblk m c 1 t))

/-- At every other reduction tile it is the step's payload over what the point before left. -/
theorem scratch_next (c : Dev nD) (t : Fin cfg0.N) (h0 : ¬t.val % 16 = 0) :
    (outsAt0 m c t.val t.isLt).2
      = k0_pay2 (F := Ideal) (wtile (grid0.coords t) (iblk m c 1 t)) (iblk m c 0 t)
          (outsAt0 m c (t.val - 1) (Nat.lt_of_le_of_lt (Nat.sub_le _ _) t.isLt)).2 := by
  by_cases h1 : t.val % 16 = 15
  · exact (snd_of_eq (outsAt0_C m c t h0 h1)).trans
      (acc_C (F := Ideal) c (grid0.coords t) (ms0_0 t) (hs0_0 t) (ms0_1 t) (hs0_1 t) (ms0_2 t) (hs0_2 t) scM0_0 (Memref.isWhole_whole _)
        (fun h => h0 ((hcond0_0 t).mp h)) ((hcond0_1 t).mpr h1) (iblk m c 0 t) (iblk m c 1 t)
        (outsAt0 m c (t.val - 1) (Nat.lt_of_le_of_lt (Nat.sub_le _ _) t.isLt)).2)
  · exact (snd_of_eq (outsAt0_B m c t h0 h1)).trans
      (acc_B (F := Ideal) c (grid0.coords t) (ms0_0 t) (hs0_0 t) (ms0_1 t) (hs0_1 t) (ms0_2 t) (hs0_2 t) scM0_0 (Memref.isWhole_whole _)
        (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2)

/-- THE INVARIANT. After point `n` (row tile `n / 16`, reduction tile `n % 16`) the accumulator at `(r, c)` is the
    sum of the summands of row `1024 · (n / 16) + r` over the first `2048 · (n % 16 + 1)` columns — by induction on
    the point. -/
theorem acc_eq (c : Dev nD) (hX : ∀ i, ∃ x : ℝ, V m c main_arg0 i = (x : EReal)) :
    ∀ (n : ℕ) (h : n < cfg0.N) (r : Fin 1024) (cc : Fin 128),
      (outsAt0 m c n h).2 (ix2 r cc) = ∑ j ∈ Finset.range (2048 * (n % 16 + 1)),
        term (V m c main_arg0) (V m c main_v0) (1024 * (n / 16) + r.val) cc j := by
  intro n
  induction n with
  | zero =>
    intro h r cc
    refine (congrFun (scratch_first m c ⟨0, h⟩ (Nat.zero_mod _)) (ix2 r cc)).trans
      ((point_step m c hX ⟨0, h⟩ _ r cc).trans ?_)
    rw [zero_apply, zero_add]
    show _ = ∑ j ∈ Finset.range (0 + 2048), _
    rw [sum_range_split, Finset.range_zero, Finset.sum_empty, zero_add]
    rfl
  | succ n ih =>
    intro h r cc
    have hN : n + 1 < 64 := lt_of_lt_of_eq h (show cfg0.N = 64 from N_0)
    by_cases h0 : (n + 1) % 16 = 0
    · refine (congrFun (scratch_first m c ⟨n + 1, h⟩ h0) (ix2 r cc)).trans
        ((point_step m c hX ⟨n + 1, h⟩ _ r cc).trans ?_)
      rw [zero_apply, zero_add]
      show ∑ j : Fin 2048, term _ _ (1024 * ((n + 1) / 16) + r.val) cc (2048 * ((n + 1) % 16) + j.val)
        = ∑ j ∈ Finset.range (2048 * ((n + 1) % 16 + 1)), _
      rw [h0, show 2048 * (0 + 1) = 0 + 2048 from rfl, sum_range_split, Finset.range_zero, Finset.sum_empty, zero_add]
    · refine (congrFun (scratch_next m c ⟨n + 1, h⟩ h0) (ix2 r cc)).trans
        ((point_step m c hX ⟨n + 1, h⟩ _ r cc).trans ?_)
      have hq : (n + 1) / 16 = n / 16 := by omega
      have hk : (n + 1) % 16 = n % 16 + 1 := by omega
      show (outsAt0 m c n (Nat.lt_of_succ_lt h)).2 (ix2 r cc)
          + ∑ j : Fin 2048, term _ _ (1024 * ((n + 1) / 16) + r.val) cc (2048 * ((n + 1) % 16) + j.val)
        = ∑ j ∈ Finset.range (2048 * ((n + 1) % 16 + 1)), _
      rw [ih (Nat.lt_of_succ_lt h) r cc, hq, hk,
        show 2048 * (n % 16 + 1 + 1) = 2048 * (n % 16 + 1) + 2048 from by ring, sum_range_split]

/-- At the last reduction tile of a row tile the output block is the accumulator, as that point leaves it, times the
    scale. -/
theorem out_at_last (c : Dev nD) (t : Fin cfg0.N) (h0 : ¬t.val % 16 = 0) (h1 : t.val % 16 = 15) :
    (outsAt0 m c t.val t.isLt).1 = k0_pay3 (F := Ideal) (outsAt0 m c t.val t.isLt).2 := by
  exact (fst_of_eq (outsAt0_C m c t h0 h1)).trans ((out_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (congrArg (k0_pay3 (F := Ideal)) ((snd_of_eq (outsAt0_C m c t h0 h1)).trans (acc_C (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2)).symm))

end Cert.KernelIdeal.Accumulate
end
-- ==== Proof.OutputArray.lean ====
/-
  The array the region leaves.

  The output window's block at point `t` is rows `1024 · (t / 16) … + 1023`, all 128 columns, and it is written
  back only at the last reduction tile of each row tile, where it holds the accumulator — the whole row's sum —
  times the scale. The four write-backs tile the [4096,128] array, so it ends at one function of `x` and the padded
  weights.
-/
import proofs.«163214_j40312563040985_2_alg».proof.Proof.Gen.KernelIdeal.Frame
import proofs.«163214_j40312563040985_2_alg».proof.Proof.Pieces
import proofs.«163214_j40312563040985_2_alg».proof.Proof.StepValue
import proofs.«163214_j40312563040985_2_alg».proof.Proof.Algebra
import proofs.«163214_j40312563040985_2_alg».proof.Proof.Accumulate
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.OutputArray

open Cert.KernelIdeal Cert.KernelIdeal.Gen Cert.KernelIdeal.Pieces Cert.KernelIdeal.StepValue Cert.SignedSum Cert.KernelIdeal.Accumulate

variable (m : (ℓ : Loc nD τ sig) → Buf (Elt Ideal) ℓ)

/-- The [4096,128] array the region leaves: at `(row, c)` the whole row's sum of `x (row, j) · sign (w (c, j))`
    over the 32768 columns, times the scale word. -/
def padded (X : S4096x32768.Idx → EReal) (Wp : S128x32768.Idx → EReal) : S4096x128.Idx → EReal :=
  fun i => (∑ j ∈ Finset.range 32768, term X Wp (i 0).val (i 1) j) * Ideal.ofBits .f32 0x3BB504F3#32

/-- The same with the coordinates named. -/
theorem padded_apply (X : S4096x32768.Idx → EReal) (Wp : S128x32768.Idx → EReal) (i : S4096x128.Idx) (row : ℕ) (cc : Fin 128)
    (h0 : (i 0).val = row) (h1 : (i 1).val = cc.val) :
    padded X Wp i = (∑ j ∈ Finset.range 32768, term X Wp row cc j) * Ideal.ofBits .f32 0x3BB504F3#32 := by
  unfold padded
  rw [h0, show (i 1 : Fin 128) = cc from Fin.ext h1]

/-- What the last reduction tile of a row tile writes back is that row tile's block of the array. -/
theorem flushed_eq (c : Dev nD) (hX : ∀ i, ∃ x : ℝ, V m c main_arg0 i = (x : EReal)) (t : Fin cfg0.N)
    (hf : (cfg0.win 2).flush t = true) :
    (dats m 0 c).flushed 2 t = ((cfg0.win 2).blk t).view.read (Elt Ideal) (padded (V m c main_arg0) (V m c main_v0)) := by
  have h15 : t.val % 16 = 15 := (flush0_2 t).mp hf
  have h0 : ¬t.val % 16 = 0 := by omega
  show (cfg0.win 2).cut (grid0.coords t) ((dats m 0 c).after 2 t) = _
  rw [after0_2, out_at_last m c t h0 h15]
  funext y
  obtain ⟨r, cc, rfl⟩ : ∃ (r : Fin 1024) (cc : Fin 128), y = ix2 r cc := ⟨y 0, y 1, eq_ix2 y⟩
  show k0_pay3 (F := Ideal) (outsAt0 m c t.val t.isLt).2 (ix2 r cc)
    = padded (V m c main_arg0) (V m c main_v0) (((cfg0.win 2).blk t).view.emb (ix2 r cc))
  rw [scaled_apply, acc_eq m c hX t.val t.isLt r cc, h15]
  refine (padded_apply _ _ _ (1024 * (t.val / 16) + r.val) cc ?_ ?_).symm
  · show win0_2.index t 0 * 1024 + 1 * r.val = _
    rw [(oidx t).1]; omega
  · show win0_2.index t 1 * 128 + 1 * cc.val = _
    rw [(oidx t).2]; omega

/-- An index of the array is in point `t`'s block iff each coordinate is in the block's range on its axis. -/
theorem mem_blk (t : Fin cfg0.N) (i : S4096x128.Idx) :
    i ∈ ((cfg0.win 2).blk t).view.set ↔ ∀ a : Fin 2, win0_2.index t a * S1024x128.size a ≤ (i a).val
      ∧ (i a).val < win0_2.index t a * S1024x128.size a + S1024x128.size a := by
  show i ∈ ((View.whole main_v1).slice (win0_2.rect t)).set ↔ _
  rw [View.set_slice_whole, Rect.mem_set_unit]
  exact Iff.rfl

/-- Every index of the array is in the block of the last reduction tile of its row tile. -/
theorem cover (i : S4096x128.Idx) :
    ∃ t : Fin cfg0.N, (cfg0.win 2).flush t = true ∧ i ∈ ((cfg0.win 2).blk t).view.set := by
  have hi0 : (i 0).val < 4096 := (i 0).isLt
  have hi1 : (i 1).val < 128 := (i 1).isLt
  have hN : cfg0.N = 64 := N_0
  let t : Fin cfg0.N := ⟨16 * ((i 0).val / 1024) + 15, by rw [hN]; omega⟩
  have ht : t.val = 16 * ((i 0).val / 1024) + 15 := rfl
  refine ⟨t, (flush0_2 t).mpr (by rw [ht]; omega), ?_⟩
  rw [mem_blk]
  intro a
  match a with
  | ⟨0, _⟩ =>
    show win0_2.index t 0 * 1024 ≤ (i 0).val ∧ (i 0).val < win0_2.index t 0 * 1024 + 1024
    rw [(oidx t).1, ht]; omega
  | ⟨1, _⟩ =>
    show win0_2.index t 1 * 128 ≤ (i 1).val ∧ (i 1).val < win0_2.index t 1 * 128 + 128
    rw [(oidx t).2]; omega

/-- The array after the run. -/
theorem final_out (c : Dev nD) (hX : ∀ i, ∃ x : ℝ, V m c main_arg0 i = (x : EReal)) :
    (dats m 0 c).arrAt 2 cfg0.N = padded (V m c main_arg0) (V m c main_v0) :=
  (dats m 0 c).arrAt_eq_of_cover 2 (padded (V m c main_arg0) (V m c main_v0)) (fun t hf => flushed_eq m c hX t hf) cover

end Cert.KernelIdeal.OutputArray
end
-- ==== Proof.Spec.lean ====
/-
  The function both programs compute: a linear layer with binarized weights, scaled.

  `result x W (b, c) = (∑ k, x (b, k) · sign (W (c, k))) · s` over the extended reals, with `sign` the order's
  sign (`−1`, `0`, `1`) and `s` the value of the scale word the two programs share.
-/
import Idealize.ShloMosaic.PureOps.Ideal
import Idealize.ShloMosaic.Lib.ValueIdx

noncomputable section

open Idealize.ShloMosaic Idealize.ShloMosaic.ValueIdx
open scoped BigOperators

namespace Cert.BinaryLinear

/-- The scaled product of `x` with the signs of `W`, contracted along the columns of both. -/
def result (X : (⟨2, ![4096, 32768]⟩ : Shape).Idx → EReal) (W : (⟨2, ![100, 32768]⟩ : Shape).Idx → EReal) :
    (⟨2, ![4096, 100]⟩ : Shape).Idx → EReal :=
  fun i => (∑ k : Fin 32768, X (ix2 (i 0) k) * Ideal.sign (W (ix2 (i 1) k))) * Ideal.ofBits .f32 0x3BB504F3#32

/-- The same at an index given by its coordinates. -/
theorem result_apply (X : (⟨2, ![4096, 32768]⟩ : Shape).Idx → EReal) (W : (⟨2, ![100, 32768]⟩ : Shape).Idx → EReal)
    (b : Fin 4096) (cc : Fin 100) :
    result X W (ix2 b cc)
      = (∑ k : Fin 32768, X (ix2 b k) * Ideal.sign (W (ix2 cc k))) * Ideal.ofBits .f32 0x3BB504F3#32 := rfl

end Cert.BinaryLinear

end
-- ==== Proof.KernelValue.lean ====
/-
  The idealized kernel's run, read back as a value.

  Before the region the host pads the weights from 100 to 128 rows with zeros; after it the host keeps the first 100
  columns of the region's [4096,128] array. A kept column `c < 100` only ever met row `c` of the padded weights,
  which is row `c` of `W`; so the result at `(b, c)` is the whole row's sum `∑ k, x (b, k) · sign (W (c, k))`
  times the scale.
-/
import proofs.«163214_j40312563040985_2_alg».proof.Proof.Gen.KernelIdeal.Frame
import proofs.«163214_j40312563040985_2_alg».proof.Proof.Pieces
import proofs.«163214_j40312563040985_2_alg».proof.Proof.StepValue
import proofs.«163214_j40312563040985_2_alg».proof.Proof.Algebra
import proofs.«163214_j40312563040985_2_alg».proof.Proof.Accumulate
import proofs.«163214_j40312563040985_2_alg».proof.Proof.OutputArray
import proofs.«163214_j40312563040985_2_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.KernelValue

open Cert.KernelIdeal Cert.KernelIdeal.Gen Cert.KernelIdeal.Pieces Cert.KernelIdeal.StepValue Cert.SignedSum Cert.KernelIdeal.Accumulate Cert.KernelIdeal.OutputArray Cert.BinaryLinear
open Idealize.ShloMosaic.StableHlo

variable (m : (ℓ : Loc nD τ sig) → Buf (Elt Ideal) ℓ)
variable (ρ : Dev nD → PrngReg)

/-- Padding 28 rows after the 100: a row below 100 of the padded array is that row of the operand. -/
theorem pad_row {α : Type} (x : S100x32768.Idx → α) (v : S_.Idx → α) (cc : Fin 128) (j : Fin 32768) (hc : cc.val < 100) :
    pad S128x32768 ![0, 0] ![28, 0] ![0, 0] x v pads_S100x32768_S128x32768_0280_000 h_S_ (ix2 cc j)
      = x (ix2 ⟨cc.val, hc⟩ j) := by
  have hin : ∀ a : Fin S100x32768.rank, (![0, 0] : Fin 2 → Nat) a ≤ ((ix2 cc j : S128x32768.Idx) (a.cast pads_S100x32768_S128x32768_0280_000.1)).val
      ∧ (((ix2 cc j : S128x32768.Idx) (a.cast pads_S100x32768_S128x32768_0280_000.1)).val - (![0, 0] : Fin 2 → Nat) a) % ((![0, 0] : Fin 2 → Nat) a + 1) = 0
      ∧ (((ix2 cc j : S128x32768.Idx) (a.cast pads_S100x32768_S128x32768_0280_000.1)).val - (![0, 0] : Fin 2 → Nat) a) / ((![0, 0] : Fin 2 → Nat) a + 1) < S100x32768.size a := by
    intro a
    match a with
    | ⟨0, _⟩ => show 0 ≤ cc.val ∧ (cc.val - 0) % (0 + 1) = 0 ∧ (cc.val - 0) / (0 + 1) < 100; omega
    | ⟨1, _⟩ => show 0 ≤ j.val ∧ (j.val - 0) % (0 + 1) = 0 ∧ (j.val - 0) / (0 + 1) < 32768; have := j.isLt; omega
  unfold pad
  rw [dif_pos hin]
  refine congrArg x (funext fun a => Fin.ext ?_)
  match a with
  | ⟨0, _⟩ => show (cc.val - 0) / (0 + 1) = cc.val; omega
  | ⟨1, _⟩ => show (j.val - 0) / (0 + 1) = j.val; omega

/-- The region finds, as its second operand, the weights padded with 28 rows of the converted integer zero. -/
theorem wpad_eq (c : Dev nD) :
    (V m c main_v0 : S128x32768.Idx → EReal)
      = pad (α := EReal) S128x32768 ![0, 0] ![28, 0] ![0, 0] (m ((c : Thread nD τ).loc main_arg1) : S100x32768.Idx → EReal)
          (sitofp (F := Ideal) .f32 (constantI S_ 32 0#32) : S_.Idx → EReal)
          pads_S100x32768_S128x32768_0280_000 h_S_ := by
  dsimp only [V, V0]
  simp only [hostOps0, hostOps0_1, List.flatten_cons, List.flatten_nil, List.append_nil, List.cons_append, List.nil_append]
  after_results
  rfl

/-- A whole row's sum over the column range is the sum over the columns. -/
theorem term_sum (X : S4096x32768.Idx → EReal) (Wp : S128x32768.Idx → EReal) (row : Fin 4096) (cc : Fin 128) :
    ∑ j ∈ Finset.range 32768, term X Wp row.val cc j = ∑ k : Fin 32768, X (ix2 row k) * Ideal.sign (Wp (ix2 cc k)) := by
  rw [Finset.sum_range]
  refine Finset.sum_congr rfl fun k _ => ?_
  rw [term, dif_pos ⟨row.isLt, k.isLt⟩]

/-- The host's slice of the first 100 columns of the region's array is `result` of the two arguments. -/
theorem tail_eq (c : Dev nD) (hX : ∀ i, ∃ x : ℝ, V m c main_arg0 i = (x : EReal)) :
    Pipeline.afterTail₀ cfgs (dats m) 0 (V0 m) [hostOps1] c main_v2
      = result (m ((c : Thread nD τ).loc main_arg0)) (m ((c : Thread nD τ).loc main_arg1)) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = padded (V m c main_arg0) (V m c main_v0) :=
    (Pipeline.withArrays_arr spec0 launch0.win.arr_inj c _ _ 2).trans (final_out m c hX)
  rw [hw]
  funext i
  obtain ⟨b, cc, rfl⟩ : ∃ (b : Fin 4096) (cc : Fin 100), i = ix2 b cc := ⟨i 0, i 1, eq_ix2 i⟩
  have hc : cc.val < 128 := by have := cc.isLt; omega
  rw [extractStridedSlice_apply _ _ _ _ (ix2 b (⟨cc.val, hc⟩ : Fin 128)) (fun a => by
    match a with
    | ⟨0, _⟩ => show b.val = 0 + b.val; omega
    | ⟨1, _⟩ => show cc.val = 0 + cc.val; omega)]
  rw [padded_apply _ _ _ b.val ⟨cc.val, hc⟩ rfl rfl, term_sum]
  rw [result_apply]
  refine congrArg (· * Ideal.ofBits .f32 0x3BB504F3#32) (Finset.sum_congr rfl fun k _ => ?_)
  rw [V_main_arg0, wpad_eq, pad_row _ _ ⟨cc.val, hc⟩ k cc.isLt]

/-- THE KERNEL'S RUN, READ: when every entry of `x` is a real, every weakly fair execution ends with the result at
    `result` of the two arguments, and the arguments as launched. -/
theorem run (hpre : ∀ (c : Dev nD) i, ∃ x : ℝ, m ((c.tc : Thread nD τ).loc main_arg0) i = (x : EReal)) :
    θ_run defs (onTc (τ := τ) (main (F := Ideal))) ⟨m, fun _ => 0, ρ⟩ fun r => ∀ c : Dev nD,
      r.2.mem ((c.tc : Thread nD τ).loc main_v2)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans
        (tail_eq m c (fun i => by rw [V_main_arg0]; exact hpre c i)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.KernelValue
end
-- ==== Proof.RefSide.lean ====
/-
  The reference computes `result`.

  Its weight is the straight-through form `(sign W − clip W) + clip W` with the clip between two finite words; the clip
  is a real at every extended real, so the weight is `sign W`. Its `dot_general` contracts the columns of `x`
  against the columns of that weight, and the product is multiplied by the scale word.
-/
import proofs.«163214_j40312563040985_2_alg».proof.Defs
import proofs.«163214_j40312563040985_2_alg».proof.Proof.Gen.ReferenceIdeal.Read
import proofs.«163214_j40312563040985_2_alg».proof.Proof.Spec
import proofs.«163214_j40312563040985_2_alg».proof.Proof.Algebra
import Idealize.ShloMosaic.Lib.ValueIdx
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read Cert.BinaryLinear Cert.SignedSum

/-- The reference's result stage, index by index, is `result` of its two arguments. -/
theorem ref_eq (x0 : S4096x32768.Idx → EReal) (x1 : S100x32768.Idx → EReal) :
    val_main_v6 (F := Ideal) x0 x1 = result x0 x1 := by
  funext i
  obtain ⟨b, cc, rfl⟩ : ∃ (b : Fin 4096) (cc : Fin 100), i = ix2 b cc := ⟨i 0, i 1, eq_ix2 i⟩
  rw [val_main_v6_apply, val_main_v4_apply, val_main_v5_apply, val_main_cst_1_apply]
  show (∑ k : Fin 32768, x0 (lidx_main_v4 (ix2 b cc) k) * val_main_v3 (F := Ideal) x1 (ridx_main_v4 (ix2 b cc) k))
      * Ideal.ofBits .f32 0x3BB504F3#32
    = (∑ k : Fin 32768, x0 (ix2 b k) * Ideal.sign (x1 (ix2 cc k))) * Ideal.ofBits .f32 0x3BB504F3#32
  refine congrArg (· * Ideal.ofBits .f32 0x3BB504F3#32) (Finset.sum_congr rfl fun k _ => ?_)
  have el : lidx_main_v4 (ix2 b cc) k = ix2 b k := funext fun a => Fin.ext (by match a with | ⟨0, _⟩ => rfl | ⟨1, _⟩ => rfl)
  have er : ridx_main_v4 (ix2 b cc) k = ix2 cc k := funext fun a => Fin.ext (by match a with | ⟨0, _⟩ => rfl | ⟨1, _⟩ => rfl)
  rw [el, er, val_main_v3_apply, val_main_v2_apply, val_main_v1_apply, val_main_v0_apply, val_main_call0_v4_apply,
    val_main_call0_v3_apply, val_main_cst_0_apply, val_main_call0_v2_apply, val_main_call0_v1_apply,
    val_main_call0_v0_apply, val_main_cst_apply]
  exact congrArg (x0 (ix2 b k) * ·) (ste_words (x1 (ix2 cc k)))

end Cert.ReferenceIdeal.RefValue

end
-- ==== Proof.lean ====
/-
  A linear layer with binarized weights: `(x · sign(W)ᵀ) · s`, `x` [4096, 32768], `W` [100, 32768].

  The kernel tiles the batch in 4 and the reduction in 16, keeps a [1024,128] accumulator across the reduction, and
  splits `x` into a bf16 high part and the residual `x − high`; with narrowing the identity the high part is `x`
  and the residual `x − x`, which vanishes exactly when `x` is finite — the one use of the precondition. The
  reference's weight is the straight-through form `(sign W − clip W) + clip W`, equal to `sign W` because the clip is
  always a real. Both sides multiply by the same scale word, so it is never evaluated.

  The three frames are the generated ones (the reference's is its generated run with the result dropped); the two
  rewrites of the idealization are the rules' own statements.
-/
import proofs.«163214_j40312563040985_2_alg».proof.Defs
import proofs.«163214_j40312563040985_2_alg».proof.Proof.Gen.Kernel
import proofs.«163214_j40312563040985_2_alg».proof.Proof.Gen.Kernel.Frame
import proofs.«163214_j40312563040985_2_alg».proof.Proof.Gen.KernelIdeal
import proofs.«163214_j40312563040985_2_alg».proof.Proof.Gen.KernelIdeal.Frame
import proofs.«163214_j40312563040985_2_alg».proof.Proof.Gen.ReferenceIdeal
import proofs.«163214_j40312563040985_2_alg».proof.Proof.Gen.ReferenceIdeal.Run
import proofs.«163214_j40312563040985_2_alg».proof.Proof.Gen.ReferenceIdeal.Read
import proofs.«163214_j40312563040985_2_alg».proof.Proof.Gen.Pre_finite_inputs
import proofs.«163214_j40312563040985_2_alg».proof.Proof.Finite
import proofs.«163214_j40312563040985_2_alg».proof.Proof.KernelValue
import proofs.«163214_j40312563040985_2_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The sign-bit read and the widening of a narrowed value, each as its rule states it. -/
theorem preserves : Cert.preserves_Kernel_KernelIdeal :=
  ⟨IdealRules.sign_bit.statement Cert.KernelIdeal.S128x2048 .f32,
    IdealRules.truncf_extf.statement Cert.KernelIdeal.S1024x2048 .f32 .bf16⟩

/-- Both programs end at `result` of the arguments: the kernel by its run read back (using that `x` is finite), the
    reference by its generated run and the straight-through identity. -/
theorem algebraic : Cert.algebraic_KernelIdeal_ReferenceIdeal := by
  intro m ρ m' ρ' hpre hagree
  refine ⟨fun c => Cert.BinaryLinear.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run m ρ (fun c i => Cert.FiniteInputs.x_real _ _ (hpre c) i), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
